-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8192x2048 : Shape := ⟨2, ![8192, 2048]⟩
abbrev S2048x8192 : Shape := ⟨2, ![2048, 8192]⟩
abbrev S8192 : Shape := ⟨1, ![8192]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S16384x2048 .f32) (main_arg1 : FVec F S8192x2048 .f32) (main_arg2 : FVec F S8192x2048 .f32) (main_arg3 : FVec F S2048x8192 .f32) (main_arg4 : IVec S8192 32) (main_arg5 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S16384x2048 : Shape := ⟨2, ![16384, 2048]⟩
abbrev S8192x2048 : Shape := ⟨2, ![8192, 2048]⟩
abbrev S2048x8192 : Shape := ⟨2, ![2048, 8192]⟩
abbrev S8192 : Shape := ⟨1, ![8192]⟩
abbrev S16384 : Shape := ⟨1, ![16384]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S512x2048 : Shape := ⟨2, ![512, 2048]⟩
abbrev S2048x512 : Shape := ⟨2, ![2048, 512]⟩
abbrev S512x512 : Shape := ⟨2, ![512, 512]⟩
abbrev S16384x1 : Shape := ⟨2, ![16384, 1]⟩

abbrev nBuf : Space → Nat
  | .hbm => 57
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .i32⟩
  | .hbm, ⟨5, _⟩ => ⟨S16384, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x2048, .f32⟩
  | .hbm, ⟨25, _⟩ => ⟨S8192x2048, .i1⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .bf16⟩
  | .hbm, ⟨30, _⟩ => ⟨S8192x2048, .bf16⟩
  | .hbm, ⟨31, _⟩ => ⟨S8192x2048, .bf16⟩
  | .hbm, ⟨32, _⟩ => ⟨S2048x8192, .bf16⟩
  | .hbm, ⟨33, _⟩ => ⟨S8192x2048, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384x2048, .f32⟩
  | .hbm, ⟨53, _⟩ => ⟨S16384x2048, .i1⟩
  | .hbm, ⟨54, _⟩ => ⟨S_, .f32⟩
  | .hbm, ⟨55, _⟩ => ⟨S16384x2048, .f32⟩
  | .hbm, ⟨56, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x2048_0 : S8192.BroadcastsInDim S8192x2048 (![0] : Fin 1 → Fin S8192x2048.rank)
  bcast_S_S8192x2048 : S_.BroadcastsInDim S8192x2048 (![] : Fin 0 → Fin S8192x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  transposes_S512x2048_p1_0_S2048x512 : S512x2048.Transposes [1, 0] S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x2048_0 : S16384.BroadcastsInDim S16384x2048 (![0] : Fin 1 → Fin S16384x2048.rank)
  bcast_S_S16384x2048 : S_.BroadcastsInDim S16384x2048 (![] : Fin 0 → Fin S16384x2048.rank)
  gather_S16384x2048_S8192x1_S8192x2048_1_0_n_n_0_1_12048_wf : GatherDims.WF S16384x2048 S8192x1 S8192x2048 [1] [0] [] [0] [] 1 ![1, 2048]
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  gather_S8192x2048_S16384x1_S16384x2048_1_0_n_n_0_1_12048_wf : GatherDims.WF S8192x2048 S16384x1 S16384x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def gather_S16384x2048_S8192x1_S8192x2048_1_0_n_n_0_1_12048 : GatherDims S16384x2048 S8192x1 S8192x2048 where
  offsetDims := [1]
  collapsedSliceDims := [0]
  operandBatchingDims := []
  startIndicesBatchingDims := []
  startIndexMap := [0]
  indexVectorDim := 1
  sliceSizes := ![1, 2048]
  wf := gather_S16384x2048_S8192x1_S8192x2048_1_0_n_n_0_1_12048_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8192x2048 : Shape := ⟨2, ![8192, 2048]⟩
abbrev S2048x8192 : Shape := ⟨2, ![2048, 8192]⟩
abbrev S8192 : Shape := ⟨1, ![8192]⟩
abbrev S16384 : Shape := ⟨1, ![16384]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x8192 : Shape := ⟨2, ![8192, 8192]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .i32⟩
  | .hbm, ⟨5, _⟩ => ⟨S16384, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x2048, .f32⟩
  | .hbm, ⟨25, _⟩ => ⟨S8192x2048, .i1⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x2048, .f32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S1, .i32⟩
  | .hbm, ⟨51, _⟩ => ⟨S_, .i32⟩
  | .hbm, ⟨52, _⟩ => ⟨S16384x1, .i32⟩
  | .hbm, ⟨53, _⟩ => ⟨S16384x1, .i1⟩
  | .hbm, ⟨54, _⟩ => ⟨S1x1, .i32⟩
  | .hbm, ⟨55, _⟩ => ⟨S16384x1, .i32⟩
  | .hbm, ⟨56, _⟩ => ⟨S16384x1, .i1⟩
  | .hbm, ⟨57, _⟩ => ⟨S16384x1, .i1⟩
  | .hbm, ⟨58, _⟩ => ⟨S_, .i1⟩
  | .hbm, ⟨59, _⟩ => ⟨S16384, .i1⟩
  | .hbm, ⟨60, _⟩ => ⟨S16384x2048, .f32⟩
  | .hbm, ⟨61, _⟩ => ⟨S16384x2048, .i1⟩
  | .hbm, ⟨62, _⟩ => ⟨S_, .f32⟩
  | .hbm, ⟨63, _⟩ => ⟨S16384x2048, .f32⟩
  | .hbm, ⟨64, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v6 : Ref sig .tc := ⟨.hbm, 64, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x2048_0 : S8192.BroadcastsInDim S8192x2048 (![0] : Fin 1 → Fin S8192x2048.rank)
  bcast_S_S8192x2048 : S_.BroadcastsInDim S8192x2048 (![] : Fin 0 → Fin S8192x2048.rank)
  bcast_S_S8192x8192 : S_.BroadcastsInDim S8192x8192 (![] : Fin 0 → Fin S8192x8192.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x2048_0 : S16384.BroadcastsInDim S16384x2048 (![0] : Fin 1 → Fin S16384x2048.rank)
  bcast_S_S16384x2048 : S_.BroadcastsInDim S16384x2048 (![] : Fin 0 → Fin S16384x2048.rank)
  gather_S16384x2048_S8192x1_S8192x2048_1_0_n_n_0_1_12048_wf : GatherDims.WF S16384x2048 S8192x1 S8192x2048 [1] [0] [] [0] [] 1 ![1, 2048]
  dot_S8192x2048_S8192x2048_S8192x8192_1_1_0_0_n_n_wf : DotDims.WF S8192x2048 S8192x2048 S8192x8192 [1] [1] [0] [0] [] []
  dot_S8192x8192_S2048x8192_S8192x2048_1_1_0_0_n_n_wf : DotDims.WF S8192x8192 S2048x8192 S8192x2048 [1] [1] [0] [0] [] []
  gather_S8192x2048_S16384x1_S16384x2048_1_0_n_n_0_1_12048_wf : GatherDims.WF S8192x2048 S16384x1 S16384x2048 [1] [0] [] [0] [] 1 ![1, 2048]

variable [Facts₀]

def gather_S16384x2048_S8192x1_S8192x2048_1_0_n_n_0_1_12048 : GatherDims S16384x2048 S8192x1 S8192x2048 where
  offsetDims := [1]
  collapsedSliceDims := [0]
  operandBatchingDims := []
  startIndicesBatchingDims := []
  startIndexMap := [0]
  indexVectorDim := 1
  sliceSizes := ![1, 2048]
  wf := gather_S16384x2048_S8192x1_S8192x2048_1_0_n_n_0_1_12048_wf
def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf
def dot_S8192x8192_S2048x8192_S8192x2048_1_1_0_0_n_n : DotDims S8192x8192 S2048x8192 S8192x2048 where
  lhsContracting := [1]
  rhsContracting := [1]
  lhsNonContracting := [0]
  rhsNonContracting := [0]
  lhsBatch := []
  rhsBatch := []
  wf := dot_S8192x8192_S2048x8192_S8192x2048_1_1_0_0_n_n_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf

class Facts : Prop extends Facts₀ where

variable [Facts]
-- ==== Proof.KBody.lean ====
/-
  What one run of the body leaves, as values.

  The body keeps a running block `acc` (512 rows of 2048 coordinates) in a buffer of its own. At the first tile of the
  intermediate axis it first stores the zero block there; at every tile it then stores `step x wg wu wd acc`, the running
  block plus this tile's contribution computed from the four input blocks; at the last tile it also copies the running block
  into the output block. So after a first tile the buffer holds `step … zero`, after any other tile `step … (what the tile
  before left)`, and the output block at a last tile is that same value.
-/
import proofs.«172787_j4105988735673_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

theorem hz' : (![0, 0] : Fin 2 → Nat) = fun _ => 0 := hz

/-- After a first tile: the contribution added to the zero block. -/
theorem sout_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S512x2048 .bf16) (x2 : Vec F S512x2048 .bf16) (x3 : Vec F S2048x512 .bf16) :
    sout0_A_0 c i arg2 harg2 arg3 harg3 arg4 harg4 arg5 harg5 arg6 harg6 arg7 harg7 hc0 hc1 x0 x1 x2 x3
      = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread,
    View.ld_unit_zero (S := S512x2048) hz, View.ld_unit_zero (S := S2048x512) hz]

/-- After a middle tile: the contribution added to what the tile before left. -/
theorem sout_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S512x2048 .bf16) (x2 : Vec F S512x2048 .bf16) (x3 : Vec F S2048x512 .bf16) (xs0 : Vec F S512x2048 .f32) :
    sout0_B_0 c i arg2 harg2 arg3 harg3 arg4 harg4 arg5 harg5 arg6 harg6 arg7 harg7 hc0 hc1 x0 x1 x2 x3 xs0
      = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread, harg7.read_unread,
    View.ld_unit_zero (S := S512x2048) hz, View.ld_unit_zero (S := S2048x512) hz]

/-- After a last tile the running block is the same update, -/
theorem sout_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x2048 .bf16) (x2 : Vec F S512x2048 .bf16) (x3 : Vec F S2048x512 .bf16) (xs0 : Vec F S512x2048 .f32) :
    sout0_C_0 c i arg2 harg2 arg3 harg3 arg4 harg4 arg5 harg5 arg6 harg6 arg7 harg7 hc0 hc1 x0 x1 x2 x3 xs0
      = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S512x2048) hz, View.ld_unit_zero (S := S2048x512) hz]

/-- and the output block is a copy of it. -/
theorem out_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S512x2048 .bf16) (x2 : Vec F S512x2048 .bf16) (x3 : Vec F S2048x512 .bf16) (xs0 : Vec F S512x2048 .f32) :
    out0_C_4 c i arg2 harg2 arg3 harg3 arg4 harg4 arg5 harg5 arg6 harg6 arg7 harg7 hc0 hc1 x0 x1 x2 x3 xs0
      = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg7.read_unread,
    View.ld_unit_zero (S := S512x2048) hz, View.ld_unit_zero (S := S2048x512) hz]

end Cert.KernelIdeal.BodyValue

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibMatmulRows.lean ====
/-
  A matrix product whose right operand is given by rows.

  When the right operand of a `tpu.matmul` into the zero accumulator is the transpose of an `N × K` array `r`, the entry
  at row `p`, column `q` is, at the ideal values, the inner product of row `p` of the left operand with row `q` of `r`:
  the sum over `k` of `l (p, k) · r (q, k)`.
-/
import proofs.«172787_j4105988735673_1_alg».proof.Proof.LibPlainDot
import Idealize.ShloMosaic.Lib.ValueLayout

noncomputable section

open scoped BigOperators

namespace Cert.Lib.MatmulRows

open Idealize.ShloMosaic Idealize.ShloMosaic.ValueIdx

variable {M K N : Nat}

/-- The product with a transposed right operand, at entry `(p, q)`: the inner product of two rows. -/
theorem matmul_transposed_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![N, K]⟩ φ₂)
    (ht : (⟨2, ![N, K]⟩ : Shape).Transposes [1, 0] ⟨2, ![K, N]⟩) (p : Fin M) (q : Fin N) :
    FloatOps.matmul D prec l (transpose ⟨2, ![K, N]⟩ [1, 0] r ht) (constant ⟨2, ![M, N]⟩ .f32 0x00000000#32) (ix2 p q)
      = ∑ k : Fin K, l (ix2 p k) * r (ix2 q k) := by
  subst hD
  rw [Cert.Lib.PlainDot.matmul_zero_apply]
  exact Finset.sum_congr rfl fun k _ => by rw [transpose_ix2_apply]

end Cert.Lib.MatmulRows

end
-- ==== Proof.KPay.lean ====
/-
  One tile's update of the running block, entry by entry, at the ideal values.

  With `x` the block of 512 rows, `wg` and `wu` the tile's 512 rows of the two first weight arrays (2048 coordinates each)
  and `wd` the tile's 512 columns of the last weight array (2048 rows), the body's update of the running block `acc` is, at
  row `p` and coordinate `h`:

      acc (p, h) + the sum over the tile's positions q of ((g · logistic g) · u) · wd (h, q),
      g = the inner product of row p of x with row q of wg,   u = the same with wu.

  The three products are plain sums at the ideal values, the change of format is the identity, and the transposes only say
  which coordinate of an operand is summed.
-/
import proofs.«172787_j4105988735673_1_alg».proof.Proof.Gen.KernelIdeal.Skeleton
import proofs.«172787_j4105988735673_1_alg».proof.Proof.LibMatmulRows
import Idealize.ShloMosaic.Lib.Pipeline.Value
import Idealize.ShloMosaic.Lib.ValueIdx

noncomputable section

open scoped BigOperators

namespace Cert.KernelIdeal.PayValue

open Idealize.ShloMosaic Idealize.ShloMosaic.ValueIdx
open Cert.KernelIdeal Cert.KernelIdeal.Gen

/-- The inner product of row `p` of the block `x` with row `q` of the tile `w`. -/
def rowDot (x w : S512x2048.Idx → EReal) (p q : Fin 512) : EReal := ∑ k : Fin 2048, x (ix2 p k) * w (ix2 q k)

/-- The gated activation at row `p` and tile position `q`. -/
def blockAct (x wg wu : S512x2048.Idx → EReal) (p q : Fin 512) : EReal :=
  rowDot x wg p q * Ideal.logistic (rowDot x wg p q) * rowDot x wu p q

/-- The logistic function of an array reads, at an index, the logistic function of the entry. -/
theorem logistic_apply {s : Shape} {φ : FTy} (a : FVec Ideal s φ) (i : s.Idx) : logistic a i = Ideal.logistic (a i) := rfl

/-- The update of the running block, at row `p` and coordinate `h`. -/
theorem pay2_apply (x0 x1 x2 : FVec Ideal S512x2048 .bf16) (x3 : FVec Ideal S2048x512 .bf16)
    (acc : FVec Ideal S512x2048 .f32) (p : Fin 512) (h : Fin 2048) :
    k0_pay2 (F := Ideal) x0 x1 x2 x3 acc (ix2 p h)
      = acc (ix2 p h) + ∑ q : Fin 512, blockAct x0 x1 x2 p q * x3 (ix2 h q) := by
  have inner : ∀ (w : FVec Ideal S512x2048 .bf16) (q : Fin 512),
      matmul dot_S512x2048_S2048x512_S512x512_1_0_0_1_n_n none x0
        (transpose S2048x512 [1, 0] w transposes_S512x2048_p1_0_S2048x512)
        (constant S512x512 .f32 0x00000000#32) (ix2 p q) = rowDot x0 w p q := fun w q =>
    Cert.Lib.MatmulRows.matmul_transposed_apply _ rfl none _ _ _ p q
  unfold k0_pay2
  dsimp only
  simp only [shapeCast_self]
  rw [addf_apply]
  refine congrArg (acc (ix2 p h) + ·) ?_
  refine (Cert.Lib.MatmulRows.matmul_transposed_apply _ rfl none _ _ _ p h).trans ?_
  refine Finset.sum_congr rfl fun q _ => ?_
  rw [truncf_apply, mulf_apply, mulf_apply, logistic_apply, inner, inner]
  rfl

end Cert.KernelIdeal.PayValue

end
-- ==== Proof.Spec.lean ====
/-
  The gated projection, entry by entry, over the extended reals.

  For an array `x` of 8192 rows of 2048 coordinates and weight arrays `wg`, `wu` (8192 rows of 2048 coordinates each)
  and `wd` (2048 rows of 8192 coordinates):

    proj x w c i  = the inner product of row `c` of `x` with row `i` of `w`,
    act c i       = (g · logistic g) · u          with g = proj x wg c i and u = proj x wu c i,
    down c h      = the sum over the 8192 intermediate coordinates `i` of act c i · wd h i.

  The 8192 intermediate coordinates are also read as 16 tiles of 512: coordinate `512 j + q` is position `q` of tile `j`.
  A sum over all of them is the sum over the tiles of the sums inside each tile (`sum_tiles`), and the sums over the first
  `n` tiles (`partialSum`) start at zero, grow by one tile's sum at a time, and reach the whole sum at `n = 16`. Only
  commutativity and associativity of the addition are used, so all of this holds at the infinities too.
-/
import Idealize.ShloMosaic.Lib.ValueIdx
import Idealize.ShloMosaic.PureOps.Ideal.Laws

noncomputable section

open scoped BigOperators

namespace Cert.GatedMlp

open Idealize.ShloMosaic Idealize.ShloMosaic.ValueIdx

/-- 8192 rows of 2048 coordinates. -/
abbrev SRows : Shape := ⟨2, ![8192, 2048]⟩
/-- 2048 rows of 8192 coordinates. -/
abbrev SCols : Shape := ⟨2, ![2048, 8192]⟩

/-- The inner product of row `c` of `x` with row `i` of `w`. -/
def proj (x w : SRows.Idx → EReal) (c i : Fin 8192) : EReal := ∑ k : Fin 2048, x (ix2 c k) * w (ix2 i k)

/-- The gated activation at row `c`, intermediate coordinate `i`. -/
def act (x wg wu : SRows.Idx → EReal) (c i : Fin 8192) : EReal :=
  proj x wg c i * Ideal.logistic (proj x wg c i) * proj x wu c i

/-- One term of the last product: the activation times the weight. -/
def term (x wg wu : SRows.Idx → EReal) (wd : SCols.Idx → EReal) (c : Fin 8192) (h : Fin 2048) (i : Fin 8192) : EReal :=
  act x wg wu c i * wd (ix2 h i)

/-- The projection back, at row `c` and coordinate `h`. -/
def downAt (x wg wu : SRows.Idx → EReal) (wd : SCols.Idx → EReal) (c : Fin 8192) (h : Fin 2048) : EReal :=
  ∑ i : Fin 8192, term x wg wu wd c h i

/-- The projection back, as one array. -/
def down (x wg wu : SRows.Idx → EReal) (wd : SCols.Idx → EReal) : SRows.Idx → EReal :=
  fun j => downAt x wg wu wd (j 0) (j 1)

theorem down_apply (x wg wu : SRows.Idx → EReal) (wd : SCols.Idx → EReal) (c : Fin 8192) (h : Fin 2048) :
    down x wg wu wd (ix2 c h) = downAt x wg wu wd c h := rfl

/-! ## Tiles of the intermediate axis -/

/-- Position `q` of tile `j`. -/
def tileIx (j : Fin 16) (q : Fin 512) : Fin 8192 := ⟨512 * j.val + q.val, by have := j.isLt; have := q.isLt; omega⟩

@[simp] theorem tileIx_val (j : Fin 16) (q : Fin 512) : (tileIx j q).val = 512 * j.val + q.val := rfl

section Sums

variable {M : Type*} [AddCommMonoid M]

/-- The sum inside tile `j`. -/
def tileSum (f : Fin 8192 → M) (j : Fin 16) : M := ∑ q : Fin 512, f (tileIx j q)

/-- A sum over all coordinates is the sum over the tiles of the sums inside them. -/
theorem sum_tiles (f : Fin 8192 → M) : ∑ i : Fin 8192, f i = ∑ j : Fin 16, tileSum f j := by
  unfold tileSum
  rw [← Fintype.sum_prod_type' (f := fun j q => f (tileIx j q))]
  refine (Equiv.sum_comp (finProdFinEquiv (m := 16) (n := 512)) f).symm.trans ?_
  refine Finset.sum_congr rfl fun p _ => congrArg f (Fin.ext ?_)
  simp only [finProdFinEquiv_apply_val, tileIx_val]
  omega

/-- The sum over the first `n` tiles. -/
def partialSum (f : Fin 8192 → M) (n : ℕ) : M :=
  ∑ j ∈ Finset.range n, if h : j < 16 then tileSum f ⟨j, h⟩ else 0

theorem partialSum_zero (f : Fin 8192 → M) : partialSum f 0 = 0 := by
  unfold partialSum; rw [Finset.range_zero, Finset.sum_empty]

theorem partialSum_succ (f : Fin 8192 → M) (n : ℕ) (h : n < 16) :
    partialSum f (n + 1) = partialSum f n + tileSum f ⟨n, h⟩ := by
  unfold partialSum; rw [Finset.sum_range_succ, dif_pos h]

theorem partialSum_all (f : Fin 8192 → M) : partialSum f 16 = ∑ i : Fin 8192, f i := by
  unfold partialSum
  rw [sum_tiles, Finset.sum_range (fun j => if h : j < 16 then tileSum f ⟨j, h⟩ else 0)]
  exact Finset.sum_congr rfl fun j _ => by rw [dif_pos j.isLt]

end Sums

end Cert.GatedMlp

end
-- ==== Proof.KBlocks.lean ====
/-
  The windows' blocks, read at an index of the arrays they are cut from.

  Grid position `t = 16·ci + j` is row block `ci` and tile `j`. There the first window's block is rows
  `512·ci … 512·ci + 511` of the block array, the second and third windows' blocks are rows `512·j … 512·j + 511` of the two
  first weight arrays, the fourth window's block is columns `512·j … 512·j + 511` of the last weight array, and the output
  window's block is rows `512·ci … 512·ci + 511` of the result array. An entry of a block sits in its array at
  block index × block size + its coordinate inside the block, axis by axis.
-/
import proofs.«172787_j4105988735673_1_alg».proof.Proof.Gen.KernelIdeal.Frame
import proofs.«172787_j4105988735673_1_alg».proof.Proof.Spec
import Idealize.ShloMosaic.Lib.Pipeline.Value
import Idealize.ShloMosaic.Lib.ValueIdx

noncomputable section

namespace Cert.KernelIdeal.BlockValue

open Idealize.ShloMosaic Idealize.ShloMosaic.TcCoe Idealize.SL.Sem Idealize.ShloMosaic.ValueIdx
open Cert.KernelIdeal Cert.KernelIdeal.Gen
open Cert.GatedMlp (tileIx)

variable (m : (ℓ : Loc nD τ sig) → Buf (Elt Ideal) ℓ)

/-- The index maps over the grid: which block each window is on at position `t`. -/
theorem index0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem index1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem index2 : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)
theorem index3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
theorem index4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- The first window's block: rows of the block array. -/
theorem iblk0_apply (c : Dev nD) (t : Fin cfg0.N) (ci j : Fin 16) (ht : t.val = 16 * ci.val + j.val) (p : Fin 512) (k : Fin 2048) :
    (iblk m c 0 t : S512x2048.Idx → EReal) (ix2 p k) = (V m c main_v1 : S8192x2048.Idx → EReal) (ix2 (tileIx ci p) k) := by
  unfold iblk
  rw [View.read_apply]
  show V m c main_v1 _ = V m c main_v1 _
  refine congrArg (V m c main_v1) ?_
  funext a
  apply Fin.ext
  have hj := j.isLt
  match a with
  | ⟨0, _⟩ => show win0_0.index t 0 * 512 + 1 * p.val = 512 * ci.val + p.val; rw [(index0 t).1]; omega
  | ⟨1, _⟩ => show win0_0.index t 1 * 2048 + 1 * k.val = k.val; rw [(index0 t).2]; omega

/-- The second window's block: the tile's rows of the first weight array. -/
theorem iblk1_apply (c : Dev nD) (t : Fin cfg0.N) (ci j : Fin 16) (ht : t.val = 16 * ci.val + j.val) (q : Fin 512) (k : Fin 2048) :
    (iblk m c 1 t : S512x2048.Idx → EReal) (ix2 q k) = (V m c main_v2 : S8192x2048.Idx → EReal) (ix2 (tileIx j q) k) := by
  unfold iblk
  rw [View.read_apply]
  show V m c main_v2 _ = V m c main_v2 _
  refine congrArg (V m c main_v2) ?_
  funext a
  apply Fin.ext
  have hj := j.isLt
  match a with
  | ⟨0, _⟩ => show win0_1.index t 0 * 512 + 1 * q.val = 512 * j.val + q.val; rw [(index1 t).1]; omega
  | ⟨1, _⟩ => show win0_1.index t 1 * 2048 + 1 * k.val = k.val; rw [(index1 t).2]; omega

/-- The third window's block: the tile's rows of the second weight array. -/
theorem iblk2_apply (c : Dev nD) (t : Fin cfg0.N) (ci j : Fin 16) (ht : t.val = 16 * ci.val + j.val) (q : Fin 512) (k : Fin 2048) :
    (iblk m c 2 t : S512x2048.Idx → EReal) (ix2 q k) = (V m c main_v3 : S8192x2048.Idx → EReal) (ix2 (tileIx j q) k) := by
  unfold iblk
  rw [View.read_apply]
  show V m c main_v3 _ = V m c main_v3 _
  refine congrArg (V m c main_v3) ?_
  funext a
  apply Fin.ext
  have hj := j.isLt
  match a with
  | ⟨0, _⟩ => show win0_2.index t 0 * 512 + 1 * q.val = 512 * j.val + q.val; rw [(index2 t).1]; omega
  | ⟨1, _⟩ => show win0_2.index t 1 * 2048 + 1 * k.val = k.val; rw [(index2 t).2]; omega

/-- The fourth window's block: the tile's columns of the last weight array. -/
theorem iblk3_apply (c : Dev nD) (t : Fin cfg0.N) (ci j : Fin 16) (ht : t.val = 16 * ci.val + j.val) (h : Fin 2048) (q : Fin 512) :
    (iblk m c 3 t : S2048x512.Idx → EReal) (ix2 h q) = (V m c main_v4 : S2048x8192.Idx → EReal) (ix2 h (tileIx j q)) := by
  unfold iblk
  rw [View.read_apply]
  show V m c main_v4 _ = V m c main_v4 _
  refine congrArg (V m c main_v4) ?_
  funext a
  apply Fin.ext
  have hj := j.isLt
  match a with
  | ⟨0, _⟩ => show win0_3.index t 0 * 2048 + 1 * h.val = h.val; rw [(index3 t).1]; omega
  | ⟨1, _⟩ => show win0_3.index t 1 * 512 + 1 * q.val = 512 * j.val + q.val; rw [(index3 t).2]; omega

end Cert.KernelIdeal.BlockValue

end
-- ==== Proof.KAcc.lean ====
/-
  What the running block holds after each grid position.

  Grid position `16·ci + j` works on row block `ci` and tile `j` of the intermediate axis. After it, the running block
  holds, at row `p` and coordinate `h`, the sum over the first `j + 1` tiles of the terms

      act (512·ci + p) i · wd h i

  of the projection back: the first tile of a row block starts from the zero block, every later tile adds its own sum to what
  the tile before left. At the last tile, `j = 15`, that is the whole sum over the 8192 intermediate coordinates, and the
  output block there is a copy of it.
-/
import proofs.«172787_j4105988735673_1_alg».proof.Proof.KBody
import proofs.«172787_j4105988735673_1_alg».proof.Proof.KPay
import proofs.«172787_j4105988735673_1_alg».proof.Proof.KBlocks

noncomputable section

open scoped BigOperators

namespace Cert.KernelIdeal.AccValue

open Idealize.ShloMosaic Idealize.ShloMosaic.TcCoe Idealize.SL.Sem Idealize.ShloMosaic.ValueIdx
open Cert.KernelIdeal Cert.KernelIdeal.Gen
open Cert.GatedMlp Cert.KernelIdeal.BodyValue Cert.KernelIdeal.PayValue Cert.KernelIdeal.BlockValue

variable (m : (ℓ : Loc nD τ sig) → Buf (Elt Ideal) ℓ)

/-- The terms summed at row `p` of row block `ci` and coordinate `h`, over the arrays as the region finds them. -/
def terms (c : Dev nD) (ci : Fin 16) (p : Fin 512) (h : Fin 2048) : Fin 8192 → EReal :=
  term (V m c main_v1 : SRows.Idx → EReal) (V m c main_v2 : SRows.Idx → EReal) (V m c main_v3 : SRows.Idx → EReal)
    (V m c main_v4 : SCols.Idx → EReal) (tileIx ci p) h

/-- One tile's contribution, computed from blocks that are the tile's rows and columns of the arrays, is the tile's sum
    of the terms. -/
theorem tile_eq (x0 x1 x2 : S512x2048.Idx → EReal) (x3 : S2048x512.Idx → EReal) (X WG WU : SRows.Idx → EReal)
    (WD : SCols.Idx → EReal) (row : Fin 8192) (j : Fin 16) (p : Fin 512) (h : Fin 2048)
    (h0 : ∀ k, x0 (ix2 p k) = X (ix2 row k)) (h1 : ∀ q k, x1 (ix2 q k) = WG (ix2 (tileIx j q) k))
    (h2 : ∀ q k, x2 (ix2 q k) = WU (ix2 (tileIx j q) k)) (h3 : ∀ q, x3 (ix2 h q) = WD (ix2 h (tileIx j q))) :
    ∑ q : Fin 512, blockAct x0 x1 x2 p q * x3 (ix2 h q) = tileSum (term X WG WU WD row h) j := by
  unfold tileSum term act proj blockAct rowDot
  refine Finset.sum_congr rfl fun q _ => ?_
  simp only [h0, h1, h2, h3]

/-- The zero block. -/
theorem pay1_apply (p : Fin 512) (h : Fin 2048) : k0_pay1 (F := Ideal) (ix2 p h) = 0 := by
  unfold k0_pay1
  rw [shapeCast_self, broadcast_apply]
  exact Ideal.ofBits_zero_f32

/-- The update at position `t = 16·ci + j`: the running block plus tile `j`'s sum of the terms. -/
theorem step_apply (c : Dev nD) (t : Fin cfg0.N) (ci j : Fin 16) (ht : t.val = 16 * ci.val + j.val)
    (acc : FVec Ideal S512x2048 .f32) (p : Fin 512) (h : Fin 2048) :
    k0_pay2 (F := Ideal) (iblk m c 0 t) (iblk m c 1 t) (iblk m c 2 t) (iblk m c 3 t) acc (ix2 p h) = acc (ix2 p h) + tileSum (terms m c ci p h) j :=
  (pay2_apply (iblk m c 0 t) (iblk m c 1 t) (iblk m c 2 t) (iblk m c 3 t) acc p h).trans
    (congrArg (acc (ix2 p h) + ·)
      (tile_eq (iblk m c 0 t) (iblk m c 1 t) (iblk m c 2 t) (iblk m c 3 t) (V m c main_v1) (V m c main_v2) (V m c main_v3) (V m c main_v4) (tileIx ci p) j p h
        (fun k => iblk0_apply m c t ci j ht p k) (fun q k => iblk1_apply m c t ci j ht q k)
        (fun q k => iblk2_apply m c t ci j ht q k) (fun q => iblk3_apply m c t ci j ht h q)))

/-- After the first tile of a row block: the update of the zero block. -/
theorem scratch_A (c : Dev nD) (t : Fin cfg0.N) (h0 : t.val % 16 = 0) (h1 : ¬t.val % 16 = 15) :
    (outsAt0 m c t.val t.isLt).2 = k0_pay2 (iblk m c 0 t) (iblk m c 1 t) (iblk m c 2 t) (iblk m c 3 t) (k0_pay1 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a middle tile: the update of what the tile before left. -/
theorem scratch_B (c : Dev nD) (t : Fin cfg0.N) (h0 : ¬t.val % 16 = 0) (h1 : ¬t.val % 16 = 15) :
    (outsAt0 m c t.val t.isLt).2
      = k0_pay2 (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2

/-- After the last tile: the same update, -/
theorem scratch_C (c : Dev nD) (t : Fin cfg0.N) (h0 : ¬t.val % 16 = 0) (h1 : t.val % 16 = 15) :
    (outsAt0 m c t.val t.isLt).2
      = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- and the output block is a copy of it. -/
theorem output_C (c : Dev nD) (t : Fin cfg0.N) (h0 : ¬t.val % 16 = 0) (h1 : t.val % 16 = 15) :
    (outsAt0 m c t.val t.isLt).1
      = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- THE RUNNING SUM: after position `16·ci + j` the running block holds the sum of the terms over the first `j + 1`
    tiles. By induction on the position: a first tile adds its sum to zero, a later one to what the tile before left. -/
theorem acc_eq (c : Dev nD) (n : ℕ) : ∀ (hn : n < cfg0.N) (ci j : Fin 16), n = 16 * ci.val + j.val →
    ∀ (p : Fin 512) (h : Fin 2048),
      ((outsAt0 m c n hn).2 : S512x2048.Idx → EReal) (ix2 p h) = partialSum (terms m c ci p h) (j.val + 1) := by
  induction n using Nat.strong_induction_on with
  | _ n ih =>
    intro hn ci j hnj p h
    have hj := j.isLt
    have hsucc : partialSum (terms m c ci p h) (j.val + 1) = partialSum (terms m c ci p h) j.val + tileSum (terms m c ci p h) j :=
      partialSum_succ _ j.val j.isLt
    rw [hsucc]
    by_cases h0 : n % 16 = 0
    · have hj0 : j.val = 0 := by omega
      have h1 : ¬n % 16 = 15 := by omega
      rw [show outsAt0 m c n hn = outsAt0 m c (⟨n, hn⟩ : Fin cfg0.N).val (⟨n, hn⟩ : Fin cfg0.N).isLt from rfl,
        scratch_A m c ⟨n, hn⟩ h0 h1, step_apply m c ⟨n, hn⟩ ci j hnj, pay1_apply]
      refine congrArg (· + tileSum (terms m c ci p h) j) ?_
      rw [hj0, partialSum_zero]
    · have hj1 : 1 ≤ j.val := by omega
      have hprev : n - 1 = 16 * ci.val + (⟨j.val - 1, by omega⟩ : Fin 16).val := by
        show n - 1 = 16 * ci.val + (j.val - 1); omega
      have hlt : n - 1 < cfg0.N := Nat.lt_of_le_of_lt (Nat.sub_le _ _) hn
      have hI := ih (n - 1) (by omega) hlt ci ⟨j.val - 1, by omega⟩ hprev p h
      rw [show (⟨j.val - 1, by omega⟩ : Fin 16).val + 1 = j.val from by show j.val - 1 + 1 = j.val; omega] at hI
      by_cases h1 : n % 16 = 15
      · rw [show outsAt0 m c n hn = outsAt0 m c (⟨n, hn⟩ : Fin cfg0.N).val (⟨n, hn⟩ : Fin cfg0.N).isLt from rfl,
          scratch_C m c ⟨n, hn⟩ h0 h1, step_apply m c ⟨n, hn⟩ ci j hnj]
        exact congrArg (· + tileSum (terms m c ci p h) j) hI
      · rw [show outsAt0 m c n hn = outsAt0 m c (⟨n, hn⟩ : Fin cfg0.N).val (⟨n, hn⟩ : Fin cfg0.N).isLt from rfl,
          scratch_B m c ⟨n, hn⟩ h0 h1, step_apply m c ⟨n, hn⟩ ci j hnj]
        exact congrArg (· + tileSum (terms m c ci p h) j) hI

/-- THE OUTPUT BLOCK at the last tile of row block `ci`: the whole sum, that is the projection back at row
    `512·ci + p` and coordinate `h`. -/
theorem output_eq (c : Dev nD) (t : Fin cfg0.N) (ci : Fin 16) (ht : t.val = 16 * ci.val + 15) (p : Fin 512) (h : Fin 2048) :
    ((outsAt0 m c t.val t.isLt).1 : S512x2048.Idx → EReal) (ix2 p h)
      = down (V m c main_v1 : SRows.Idx → EReal) (V m c main_v2 : SRows.Idx → EReal) (V m c main_v3 : SRows.Idx → EReal)
          (V m c main_v4 : SCols.Idx → EReal) (ix2 (tileIx ci p) h) := by
  have h0 : ¬t.val % 16 = 0 := by omega
  have h1 : t.val % 16 = 15 := by omega
  have hlt : t.val - 1 < cfg0.N := Nat.lt_of_le_of_lt (Nat.sub_le _ _) t.isLt
  have hI := acc_eq m c (t.val - 1) hlt ci ⟨14, by decide⟩ (by show t.val - 1 = 16 * ci.val + 14; omega) p h
  rw [output_C m c t h0 h1, step_apply m c t ci ⟨15, by decide⟩ ht, hI, down_apply]
  unfold downAt
  rw [← partialSum_all, partialSum_succ _ 15 (by decide)]
  rfl

end Cert.KernelIdeal.AccValue

end
-- ==== Proof.KFinal.lean ====
/-
  The result array after the region.

  The output window's block is written back at the last tile of each row block only, position `16·ci + 15`, and what is
  written there is rows `512·ci … 512·ci + 511` of the projection back of the arrays the region finds. The sixteen row
  blocks fill the result array, so after the region it holds the projection back, entry by entry.
-/
import proofs.«172787_j4105988735673_1_alg».proof.Proof.KAcc

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen
open Cert.GatedMlp Cert.KernelIdeal.BlockValue Cert.KernelIdeal.AccValue

variable (m : (ℓ : Loc nD τ sig) → Buf (Elt Ideal) ℓ)

/-- The projection back of the arrays as the region finds them. -/
def result (c : Dev nD) : S8192x2048.Idx → EReal :=
  down (V m c main_v1 : SRows.Idx → EReal) (V m c main_v2 : SRows.Idx → EReal) (V m c main_v3 : SRows.Idx → EReal)
    (V m c main_v4 : SCols.Idx → EReal)

/-- What a writing position writes back is its block of the projection back. -/
theorem flushed_eq (c : Dev nD) (t : Fin cfg0.N) (hf : (cfg0.win 4).flush t = true) :
    (dats m 0 c).flushed 4 t = ((cfg0.win 4).blk t).view.read (Elt Ideal) (result m c) := by
  have h15 : t.val % 16 = 15 := (flush0_4 t).mp hf
  have hN : t.val < 256 := lt_of_lt_of_eq t.isLt N_0
  show (cfg0.win 4).cut (grid0.coords t) ((dats m 0 c).after 4 t) = _
  rw [after0_4]
  funext y
  obtain ⟨p, h, rfl⟩ : ∃ (p : Fin 512) (h : Fin 2048), y = ix2 p h := ⟨y 0, y 1, eq_ix2 y⟩
  show ((outsAt0 m c t.val t.isLt).1 : S512x2048.Idx → EReal) (ix2 p h) = result m c (((cfg0.win 4).blk t).view.emb (ix2 p h))
  rw [output_eq m c t ⟨t.val / 16, by omega⟩ (by show t.val = 16 * (t.val / 16) + 15; omega) p h]
  refine congrArg (result m c) ?_
  funext a
  apply Fin.ext
  match a with
  | ⟨0, _⟩ => show 512 * (t.val / 16) + p.val = win0_4.index t 0 * 512 + 1 * p.val; rw [(index4 t).1]; omega
  | ⟨1, _⟩ => show h.val = win0_4.index t 1 * 2048 + 1 * h.val; rw [(index4 t).2]; omega

/-- So the result array ends holding the projection back. -/
theorem final (c : Dev nD) : ((dats m 0 c).arrAt 4 cfg0.N : S8192x2048.Idx → EReal) = result m c :=
  (dats m 0 c).arrAt_eq_of_cover 4 (result m c) (flushed_eq m c) fun i => by
    have hi0 : (i 0).val < 8192 := (i 0).isLt
    have hi1 : (i 1).val < 2048 := (i 1).isLt
    have hN : cfg0.N = 256 := N_0
    have hlt : 16 * ((i 0).val / 512) + 15 < cfg0.N := by rw [hN]; omega
    refine ⟨⟨16 * ((i 0).val / 512) + 15, hlt⟩, (flush0_4 _).mpr (by show (16 * ((i 0).val / 512) + 15) % 16 = 15; omega), ?_⟩
    show i ∈ ((View.whole main_v5).slice (win0_4.rect ⟨16 * ((i 0).val / 512) + 15, hlt⟩)).set
    rw [View.set_slice_whole, Rect.mem_set_unit]
    intro a
    match a with
    | ⟨0, _⟩ =>
      show win0_4.index ⟨16 * ((i 0).val / 512) + 15, hlt⟩ 0 * 512 ≤ (i 0).val ∧ (i 0).val < win0_4.index ⟨16 * ((i 0).val / 512) + 15, hlt⟩ 0 * 512 + 512
      rw [(index4 ⟨16 * ((i 0).val / 512) + 15, hlt⟩).1]
      show (16 * ((i 0).val / 512) + 15) / 16 * 512 ≤ (i 0).val ∧ (i 0).val < (16 * ((i 0).val / 512) + 15) / 16 * 512 + 512
      omega
    | ⟨1, _⟩ =>
      show win0_4.index ⟨16 * ((i 0).val / 512) + 15, hlt⟩ 1 * 2048 ≤ (i 1).val ∧ (i 1).val < win0_4.index ⟨16 * ((i 0).val / 512) + 15, hlt⟩ 1 * 2048 + 2048
      rw [(index4 ⟨16 * ((i 0).val / 512) + 15, hlt⟩).2]
      omega

end Cert.KernelIdeal.RegionValue

end
-- ==== Proof.KHost.lean ====
/- The host operations of the kernel program around its one region, at the ideal instance.

   Before the region the program gathers rows of its first argument by an index vector and then changes the
   format of the four operands (the identity at the ideal instance); after the region it gathers rows of the
   region's output by a second index vector. Both gathers are the row selection of `jnp.take` along axis 0: a
   negative index is wrapped once by the axis length, and a row whose wrapped index still falls outside the
   axis is filled with a fixed word. This module names the two gathers as functions of their operands
   (`takeRows`, `takeBack`: the program's operations composed in program order, never opened), reads the
   region's four input arrays as these functions of the launch contents, and restates the program's run with
   its result as `takeBack` of whatever the region's output array ends at. -/
import proofs.«172787_j4105988735673_1_alg».proof.Proof.Gen.KernelIdeal.Frame
import Idealize.ShloMosaic.PureOps.Ideal
import Idealize.ShloMosaic.PureOps.Ideal.Laws

set_option maxRecDepth 16384

noncomputable section

namespace Cert.KernelIdeal.HostValue

open Idealize.ShloMosaic Idealize.ShloMosaic.TcCoe Idealize.ShloMosaic.Tactic
open Idealize.SL Idealize.SL.Sem
open Idealize.ShloMosaic.StableHlo
open Cert.KernelIdeal Cert.KernelIdeal.Gen

/-- Rows of `x` selected by `idx` (the first gather): an index below zero has the row count 16384 added; the
    wrapped index `j` selects row `j` when `0 ≤ j ≤ 16383`, and otherwise the row is the fill word at every
    column. The operations are the program's, in its order, each applied to the earlier values. -/
def takeRows (x : (⟨S16384x2048, .f32⟩ : BufTy).Contents (Elt Ideal)) (idx : (⟨S8192, .i32⟩ : BufTy).Contents (Elt Ideal)) :
    (⟨S8192x2048, .f32⟩ : BufTy).Contents (Elt Ideal) :=
  let c : (⟨S_, .i32⟩ : BufTy).Contents (Elt Ideal) := constantI S_ 32 0#32
  let v0 : (⟨S8192, .i32⟩ : BufTy).Contents (Elt Ideal) := broadcastInDim S8192 ![] bcast_S_S8192 c
  let v1 : (⟨S8192, .i1⟩ : BufTy).Contents (Elt Ideal) := cmpi .slt idx v0
  let c_0 : (⟨S_, .i32⟩ : BufTy).Contents (Elt Ideal) := constantI S_ 32 16384#32
  let v2 : (⟨S8192, .i32⟩ : BufTy).Contents (Elt Ideal) := broadcastInDim S8192 ![] bcast_S_S8192 c_0
  let v3 : (⟨S8192, .i32⟩ : BufTy).Contents (Elt Ideal) := addi idx v2
  let v4 : (⟨S8192, .i32⟩ : BufTy).Contents (Elt Ideal) := select v1 v3 idx
  let v5 : (⟨S8192x1, .i32⟩ : BufTy).Contents (Elt Ideal) := broadcastInDim S8192x1 ![0] bcast_S8192_S8192x1_0 v4
  let c_1 : (⟨S1, .i32⟩ : BufTy).Contents (Elt Ideal) := constantI S1 32 16383#32
  let c_2 : (⟨S_, .i32⟩ : BufTy).Contents (Elt Ideal) := constantI S_ 32 0#32
  let v6 : (⟨S8192x1, .i32⟩ : BufTy).Contents (Elt Ideal) := broadcastInDim S8192x1 ![] bcast_S_S8192x1 c_2
  let v7 : (⟨S8192x1, .i1⟩ : BufTy).Contents (Elt Ideal) := cmpi .sge v5 v6
  let v8 : (⟨S1x1, .i32⟩ : BufTy).Contents (Elt Ideal) := broadcastInDim S1x1 ![1] bcast_S1_S1x1_1 c_1
  let v9 : (⟨S8192x1, .i32⟩ : BufTy).Contents (Elt Ideal) := broadcastInDim S8192x1 ![0, 1] bcast_S1x1_S8192x1_0_1 v8
  let v10 : (⟨S8192x1, .i1⟩ : BufTy).Contents (Elt Ideal) := cmpi .sle v5 v9
  let v11 : (⟨S8192x1, .i1⟩ : BufTy).Contents (Elt Ideal) := andi v7 v10
  let c_3 : (⟨S_, .i1⟩ : BufTy).Contents (Elt Ideal) := constantI S_ 1 1#1
  let v12 : (⟨S8192, .i1⟩ : BufTy).Contents (Elt Ideal) := Host.reduce IntOp.andi v11 c_3 reducesTo_S8192x1_S8192_d1 h_S_
  let v13 : (⟨S8192x2048, .f32⟩ : BufTy).Contents (Elt Ideal) := Host.gather gather_S16384x2048_S8192x1_S8192x2048_1_0_n_n_0_1_12048 x v5
  let v14 : (⟨S8192x2048, .i1⟩ : BufTy).Contents (Elt Ideal) := broadcastInDim S8192x2048 ![0] bcast_S8192_S8192x2048_0 v12
  let cst : (⟨S_, .f32⟩ : BufTy).Contents (Elt Ideal) := constant (F := Ideal) S_ .f32 0x7FC00000#32
  let v15 : (⟨S8192x2048, .f32⟩ : BufTy).Contents (Elt Ideal) := broadcastInDim S8192x2048 ![] bcast_S_S8192x2048 cst
  select v14 v13 v15

/-- Rows of `d` selected by `idx` (the second gather): an index below zero has the row count 8192 added; the
    wrapped index `j` selects row `j` when `0 ≤ j ≤ 8191`, and otherwise the row is the fill word at every
    column. The operations are the program's, in its order, each applied to the earlier values. -/
def takeBack (d : (⟨S8192x2048, .f32⟩ : BufTy).Contents (Elt Ideal)) (idx : (⟨S16384, .i32⟩ : BufTy).Contents (Elt Ideal)) :
    (⟨S16384x2048, .f32⟩ : BufTy).Contents (Elt Ideal) :=
  let c : (⟨S_, .i32⟩ : BufTy).Contents (Elt Ideal) := constantI S_ 32 0#32
  let v0 : (⟨S16384, .i32⟩ : BufTy).Contents (Elt Ideal) := broadcastInDim S16384 ![] bcast_S_S16384 c
  let v1 : (⟨S16384, .i1⟩ : BufTy).Contents (Elt Ideal) := cmpi .slt idx v0
  let c_0 : (⟨S_, .i32⟩ : BufTy).Contents (Elt Ideal) := constantI S_ 32 8192#32
  let v2 : (⟨S16384, .i32⟩ : BufTy).Contents (Elt Ideal) := broadcastInDim S16384 ![] bcast_S_S16384 c_0
  let v3 : (⟨S16384, .i32⟩ : BufTy).Contents (Elt Ideal) := addi idx v2
  let v4 : (⟨S16384, .i32⟩ : BufTy).Contents (Elt Ideal) := select v1 v3 idx
  let v5 : (⟨S16384x1, .i32⟩ : BufTy).Contents (Elt Ideal) := broadcastInDim S16384x1 ![0] bcast_S16384_S16384x1_0 v4
  let c_1 : (⟨S1, .i32⟩ : BufTy).Contents (Elt Ideal) := constantI S1 32 8191#32
  let c_2 : (⟨S_, .i32⟩ : BufTy).Contents (Elt Ideal) := constantI S_ 32 0#32
  let v6 : (⟨S16384x1, .i32⟩ : BufTy).Contents (Elt Ideal) := broadcastInDim S16384x1 ![] bcast_S_S16384x1 c_2
  let v7 : (⟨S16384x1, .i1⟩ : BufTy).Contents (Elt Ideal) := cmpi .sge v5 v6
  let v8 : (⟨S1x1, .i32⟩ : BufTy).Contents (Elt Ideal) := broadcastInDim S1x1 ![1] bcast_S1_S1x1_1 c_1
  let v9 : (⟨S16384x1, .i32⟩ : BufTy).Contents (Elt Ideal) := broadcastInDim S16384x1 ![0, 1] bcast_S1x1_S16384x1_0_1 v8
  let v10 : (⟨S16384x1, .i1⟩ : BufTy).Contents (Elt Ideal) := cmpi .sle v5 v9
  let v11 : (⟨S16384x1, .i1⟩ : BufTy).Contents (Elt Ideal) := andi v7 v10
  let c_3 : (⟨S_, .i1⟩ : BufTy).Contents (Elt Ideal) := constantI S_ 1 1#1
  let v12 : (⟨S16384, .i1⟩ : BufTy).Contents (Elt Ideal) := Host.reduce IntOp.andi v11 c_3 reducesTo_S16384x1_S16384_d1 h_S_
  let v13 : (⟨S16384x2048, .f32⟩ : BufTy).Contents (Elt Ideal) := Host.gather gather_S8192x2048_S16384x1_S16384x2048_1_0_n_n_0_1_12048 d v5
  let v14 : (⟨S16384x2048, .i1⟩ : BufTy).Contents (Elt Ideal) := broadcastInDim S16384x2048 ![0] bcast_S16384_S16384x2048_0 v12
  let cst : (⟨S_, .f32⟩ : BufTy).Contents (Elt Ideal) := constant (F := Ideal) S_ .f32 0x7FC00000#32
  let v15 : (⟨S16384x2048, .f32⟩ : BufTy).Contents (Elt Ideal) := broadcastInDim S16384x2048 ![] bcast_S_S16384x2048 cst
  select v14 v13 v15

/-! ## The two gathers, run from any buffer contents -/

/-- The first gather's 23 operations, run from any buffer contents `W`, leave in their result buffer the rows of
    `W`'s first-argument buffer selected by `W`'s index buffer. -/
theorem after_hostOps0 (W : Valuation τ sig (Elt Ideal)) :
    (StableHlo.after (hostOps0 (F := Ideal)) W (Proc.devRef .tc main_v0) : S8192x2048.Idx → EReal)
      = takeRows (W (Proc.devRef .tc main_arg0)) (W (Proc.devRef .tc main_arg4)) := by
  simp only [Gen.hostOps0]
  after_results_simp
  simp only [TRef.ofBuf, TRef.toBuf, cast_cast, cast_eq]
  rfl

/-- The second gather's 23 operations, run from any buffer contents `W`, leave in their result buffer the rows of
    `W`'s region-output buffer selected by `W`'s second index buffer. -/
theorem after_hostOps1 (W : Valuation τ sig (Elt Ideal)) :
    (StableHlo.after (hostOps1 (F := Ideal)) W (Proc.devRef .tc main_v6) : S16384x2048.Idx → EReal)
      = takeBack (W (Proc.devRef .tc main_v5)) (W (Proc.devRef .tc main_arg5)) := by
  simp only [Gen.hostOps1]
  after_results_simp
  simp only [TRef.ofBuf, TRef.toBuf, cast_cast, cast_eq]
  rfl

/-! ## The region's input arrays

Each is a change of format — the identity on ideal values — of a buffer the earlier operations wrote (the first
gather's result) or never touched (the three weight arguments). -/

variable (m : (ℓ : Loc nD τ sig) → Buf (Elt Ideal) ℓ)

/-- The region's first input array is the first gather of the launch contents: the 23 operations of the gather write
    its source, and the change of format after them is the identity on ideal values. -/
theorem V_v1 (c : Dev nD) : (V m c main_v1 : S8192x2048.Idx → EReal)
    = takeRows (m ((c.tc : Thread nD τ).loc main_arg0)) (m ((c.tc : Thread nD τ).loc main_arg4)) := by
  have e : (V m c main_v1 : S8192x2048.Idx → EReal)
      = StableHlo.after (hostOps0 (F := Ideal)) (fun b => m (c, b)) (Proc.devRef .tc main_v0) := by
    dsimp only [Gen.V, Gen.V0]
    rw [List.flatten_cons, List.flatten_cons, List.flatten_nil, List.append_nil, StableHlo.after_append]
    simp only [Gen.hostOps0_1]
    after_results_simp
    rfl
  rw [e, after_hostOps0]

/-- The region's second input array is the launch contents of the gate weights. -/
theorem V_v2 (c : Dev nD) : (V m c main_v2 : S8192x2048.Idx → EReal) = m ((c.tc : Thread nD τ).loc main_arg1) := by
  dsimp only [Gen.V, Gen.V0]
  simp only [Gen.hostOps0, Gen.hostOps0_1, List.flatten_cons, List.flatten_nil, List.append_nil, List.cons_append, List.nil_append]
  after_results_simp
  rfl

/-- The region's third input array is the launch contents of the up weights. -/
theorem V_v3 (c : Dev nD) : (V m c main_v3 : S8192x2048.Idx → EReal) = m ((c.tc : Thread nD τ).loc main_arg2) := by
  dsimp only [Gen.V, Gen.V0]
  simp only [Gen.hostOps0, Gen.hostOps0_1, List.flatten_cons, List.flatten_nil, List.append_nil, List.cons_append, List.nil_append]
  after_results_simp
  rfl

/-- The region's fourth input array is the launch contents of the down weights. -/
theorem V_v4 (c : Dev nD) : (V m c main_v4 : S2048x8192.Idx → EReal) = m ((c.tc : Thread nD τ).loc main_arg3) := by
  dsimp only [Gen.V, Gen.V0]
  simp only [Gen.hostOps0, Gen.hostOps0_1, List.flatten_cons, List.flatten_nil, List.append_nil, List.cons_append, List.nil_append]
  after_results_simp
  rfl

/-! ## The result -/

/-- What the operations after the region leave in the result buffer: the second gather of whatever the region's
    output array ends at (`D`), by the launch contents of the second index vector — the output array is read off the
    region's proof data, the index vector is an argument no operation writes. -/
theorem tail_v6 (c : Dev nD) (D : S8192x2048.Idx → EReal)
    (hD : ((dats m 0 c).arrAt 4 cfg0.N : S8192x2048.Idx → EReal) = D) :
    (Pipeline.afterTail₀ cfgs (dats m) 0 (V0 m) [hostOps1] c main_v6 : S16384x2048.Idx → EReal)
      = takeBack D (m ((c.tc : Thread nD τ).loc main_arg5)) := by
  unfold Pipeline.afterTail₀
  rw [List.flatten_cons, List.flatten_nil, List.append_nil, after_hostOps1]
  exact congrArg₂ takeBack
    ((Pipeline.withArrays_arr spec0 launch0.win.arr_inj c _ _ 4).trans hD)
    ((Pipeline.withArrays_of_ne _ c (V0 m c) _ main_arg5 (by exact (by decide : ∀ w, Pipeline.arrRef spec0 w ≠ main_arg5))).trans
      (V_main_arg5 m c))

/-- The program's run, with its result named: every weakly fair execution from zero counters terminates, the result
    buffer ends at the second gather of what the region's output array ends at (`D`, whatever it is), and the six
    arguments end as launched. -/
theorem run_of_final (ρ : Dev nD → PrngReg) (D : Dev nD → S8192x2048.Idx → EReal)
    (hD : ∀ c : Dev nD, ((dats m 0 c).arrAt 4 cfg0.N : S8192x2048.Idx → EReal) = D c) :
    θ_run (defs (F := Ideal)) (onTc (τ := τ) (main (F := Ideal))) ⟨m, fun _ => 0, ρ⟩ fun r => ∀ c : Dev nD,
      r.2.mem ((c.tc : Thread nD τ).loc main_v6) = takeBack (D c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (tail_v6 m c (D c) (hD c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.HostValue

end
-- ==== Proof.KRun.lean ====
/-
  The kernel program's run, read: its result is the second gather of the projection back of the first gather.

  The region's four input arrays are, at the ideal values, the first gather of `x` and the three weight arrays as launched
  (the changes of format are the identity); the region leaves the projection back of those in its output array; and the host
  operations after the region gather that array's rows.
-/
import proofs.«172787_j4105988735673_1_alg».proof.Proof.KFinal
import proofs.«172787_j4105988735673_1_alg».proof.Proof.KHost

noncomputable section

namespace Cert.KernelIdeal.RunValue

open Idealize.ShloMosaic Idealize.ShloMosaic.TcCoe Idealize.SL.Sem
open Cert.KernelIdeal Cert.KernelIdeal.Gen
open Cert.KernelIdeal.HostValue (takeRows takeBack)

/-- What the region's output array ends at, in terms of the launch contents. -/
theorem final_launch (m : (ℓ : Loc nD τ sig) → Buf (Elt Ideal) ℓ) (c : Dev nD) :
    ((dats m 0 c).arrAt 4 cfg0.N : S8192x2048.Idx → EReal)
      = Cert.GatedMlp.down (takeRows (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) := by
  rw [Cert.KernelIdeal.RegionValue.final m c]
  unfold Cert.KernelIdeal.RegionValue.result
  rw [Cert.KernelIdeal.HostValue.V_v1, Cert.KernelIdeal.HostValue.V_v2, Cert.KernelIdeal.HostValue.V_v3,
    Cert.KernelIdeal.HostValue.V_v4]

/-- The run: the result buffer at the second gather of the projection back, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
        = takeBack (Cert.GatedMlp.down (takeRows (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.KernelIdeal.HostValue.run_of_final m ρ
    (fun c => Cert.GatedMlp.down (takeRows (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)))
    (fun c => final_launch m c)

end Cert.KernelIdeal.RunValue

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.RefOps.lean ====
/-
  The reference program as one straight line.

  The reference computes, on the host only: the rows of the first argument picked by the first index vector (`take`: a
  negative index wrapped once, a row whose index is still out of range filled with one fixed word), the gated
  projection of those rows (three contractions, the logistic gate spelt as `g * (1 / (1 + exp (-g)))`, one product),
  and the rows of that result picked by the second index vector. Its entry function calls three outlined functions
  (the two `take`s, each calling an outlined `select`, and the gate), each of which is a straight line of host
  operations over the buffers of its call. Substituting every callee's body at its call site gives one straight line
  of 59 operations: 23 for the first `take`, one contraction, 9 for the gate, one contraction, one product, one
  contraction, and 23 for the second `take`. `ops` lists them in that order, `main_eq` says the entry function is
  exactly that line, and `run_ops` that every weakly fair execution of it ends, each buffer holding what the fold of
  the operations' results over the launch contents gives it.

  `main_eq` goes through the five stretches the calls cut the line into (`opsTake`, `opsProj`, `opsGate`, `opsRest`,
  `opsBack`): the entry function is the chain of the five stretches by unfolding alone (each callee's body is its
  stretch, each stretch between two calls is itself), and a chain of stretches is the line of their concatenation.
-/
import proofs.«172787_j4105988735673_1_alg».proof.Proof.Gen.ReferenceIdeal
import Idealize.ShloMosaic.Lib.StableHlo.Run
import Idealize.ShloMosaic.Lib.Pipeline.Regions

noncomputable section

namespace Cert.ReferenceIdeal.RefOps

open Cert.ReferenceIdeal Cert.ReferenceIdeal.Gen Idealize.ShloMosaic Idealize.ShloMosaic.TcCoe Idealize.SL.Sem
  Idealize.ShloMosaic.StableHlo

variable {F : FTy → Type} [FloatOps F]

/-- The first `take`, 23 operations over the first call's buffers: rows of argument 0 at the indices of argument 4. -/
abbrev opsTake : List (HloOp τ sig (Elt F)) :=
  [ TRef.nullary main_call0.c (constantI S_ 32 0#32),
    TRef.unary main_call0.c main_call0.v0 (broadcastInDim S8192 ![] bcast_S_S8192),
    TRef.binary (.of main_arg4) main_call0.v0 main_call0.v1 (cmpi .slt),
    TRef.nullary main_call0.c_0 (constantI S_ 32 16384#32),
    TRef.unary main_call0.c_0 main_call0.v2 (broadcastInDim S8192 ![] bcast_S_S8192),
    TRef.binary (.of main_arg4) main_call0.v2 main_call0.v3 addi,
    TRef.ternary main_call0.v1 main_call0.v3 (.of main_arg4) main_call0.call0.v0 select,
    TRef.unary main_call0.call0.v0 main_call0.v5 (broadcastInDim S8192x1 ![0] bcast_S8192_S8192x1_0),
    TRef.nullary main_call0.c_1 (constantI S1 32 16383#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg0) main_call0.v5 main_call0.v13 (fun x i => Host.gather gather_S16384x2048_S8192x1_S8192x2048_1_0_n_n_0_1_12048 x i),
    TRef.unary main_call0.v12 main_call0.v14 (broadcastInDim S8192x2048 ![0] bcast_S8192_S8192x2048_0),
    TRef.nullary main_call0.cst (constant S_ .f32 0x7FC00000#32),
    TRef.unary main_call0.cst main_call0.v15 (broadcastInDim S8192x2048 ![] bcast_S_S8192x2048),
    TRef.ternary main_call0.v14 main_call0.v13 main_call0.v15 main_call0.v16 select ]

/-- The contraction of the taken rows with argument 1. -/
abbrev opsProj : List (HloOp τ sig (Elt F)) :=
  [ binary main_v0 main_arg1 main_v1 ((fun l r => Host.dotGeneral dot_S8192x2048_S8192x2048_S8192x8192_1_1_0_0_n_n none l r) : (⟨S8192x2048, .f32⟩ : BufTy).Contents (Elt F) → (⟨S8192x2048, .f32⟩ : BufTy).Contents (Elt F) → (⟨S8192x8192, .f32⟩ : BufTy).Contents (Elt F)) ]

/-- The gate, 9 operations over the second call's buffers: `g * (1 / (1 + exp (-g)))`. -/
abbrev opsGate : List (HloOp τ sig (Elt F)) :=
  [ TRef.unary (.of main_v1) main_call1.v0 Host.negf,
    TRef.unary main_call1.v0 main_call1.v1 Host.exp,
    TRef.nullary main_call1.cst (constant S_ .f32 0x3F800000#32),
    TRef.unary main_call1.cst main_call1.v2 (broadcastInDim S8192x8192 ![] bcast_S_S8192x8192),
    TRef.binary main_call1.v2 main_call1.v1 main_call1.v3 addf,
    TRef.nullary main_call1.cst_0 (constant S_ .f32 0x3F800000#32),
    TRef.unary main_call1.cst_0 main_call1.v4 (broadcastInDim S8192x8192 ![] bcast_S_S8192x8192),
    TRef.binary main_call1.v4 main_call1.v3 main_call1.v5 Host.divf,
    TRef.binary (.of main_v1) main_call1.v5 main_call1.v6 mulf ]

/-- The contraction of the taken rows with argument 2, the product with the gate, the contraction with argument 3. -/
abbrev opsRest : List (HloOp τ sig (Elt F)) :=
  [ binary main_v0 main_arg2 main_v3 ((fun l r => Host.dotGeneral dot_S8192x2048_S8192x2048_S8192x8192_1_1_0_0_n_n none l r) : (⟨S8192x2048, .f32⟩ : BufTy).Contents (Elt F) → (⟨S8192x2048, .f32⟩ : BufTy).Contents (Elt F) → (⟨S8192x8192, .f32⟩ : BufTy).Contents (Elt F)),
    binary main_v2 main_v3 main_v4 (mulf : (⟨S8192x8192, .f32⟩ : BufTy).Contents (Elt F) → (⟨S8192x8192, .f32⟩ : BufTy).Contents (Elt F) → (⟨S8192x8192, .f32⟩ : BufTy).Contents (Elt F)),
    binary main_v4 main_arg3 main_v5 ((fun l r => Host.dotGeneral dot_S8192x8192_S2048x8192_S8192x2048_1_1_0_0_n_n none l r) : (⟨S8192x8192, .f32⟩ : BufTy).Contents (Elt F) → (⟨S2048x8192, .f32⟩ : BufTy).Contents (Elt F) → (⟨S8192x2048, .f32⟩ : BufTy).Contents (Elt F)) ]

/-- The second `take`, 23 operations over the third call's buffers: rows of the last contraction at the indices of
    argument 5. -/
abbrev opsBack : List (HloOp τ sig (Elt F)) :=
  [ TRef.nullary main_call2.c (constantI S_ 32 0#32),
    TRef.unary main_call2.c main_call2.v0 (broadcastInDim S16384 ![] bcast_S_S16384),
    TRef.binary (.of main_arg5) main_call2.v0 main_call2.v1 (cmpi .slt),
    TRef.nullary main_call2.c_0 (constantI S_ 32 8192#32),
    TRef.unary main_call2.c_0 main_call2.v2 (broadcastInDim S16384 ![] bcast_S_S16384),
    TRef.binary (.of main_arg5) main_call2.v2 main_call2.v3 addi,
    TRef.ternary main_call2.v1 main_call2.v3 (.of main_arg5) main_call2.call0.v0 select,
    TRef.unary main_call2.call0.v0 main_call2.v5 (broadcastInDim S16384x1 ![0] bcast_S16384_S16384x1_0),
    TRef.nullary main_call2.c_1 (constantI S1 32 8191#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_v5) main_call2.v5 main_call2.v13 (fun x i => Host.gather gather_S8192x2048_S16384x1_S16384x2048_1_0_n_n_0_1_12048 x i),
    TRef.unary main_call2.v12 main_call2.v14 (broadcastInDim S16384x2048 ![0] bcast_S16384_S16384x2048_0),
    TRef.nullary main_call2.cst (constant S_ .f32 0x7FC00000#32),
    TRef.unary main_call2.cst main_call2.v15 (broadcastInDim S16384x2048 ![] bcast_S_S16384x2048),
    TRef.ternary main_call2.v14 main_call2.v13 main_call2.v15 main_call2.v16 select ]

/-- The 59 operations of the entry function, the calls replaced by their callees' bodies: the five stretches above,
    one after the other. -/
abbrev ops : List (HloOp τ sig (Elt F)) :=
  [ TRef.nullary main_call0.c (constantI S_ 32 0#32),
    TRef.unary main_call0.c main_call0.v0 (broadcastInDim S8192 ![] bcast_S_S8192),
    TRef.binary (.of main_arg4) main_call0.v0 main_call0.v1 (cmpi .slt),
    TRef.nullary main_call0.c_0 (constantI S_ 32 16384#32),
    TRef.unary main_call0.c_0 main_call0.v2 (broadcastInDim S8192 ![] bcast_S_S8192),
    TRef.binary (.of main_arg4) main_call0.v2 main_call0.v3 addi,
    TRef.ternary main_call0.v1 main_call0.v3 (.of main_arg4) main_call0.call0.v0 select,
    TRef.unary main_call0.call0.v0 main_call0.v5 (broadcastInDim S8192x1 ![0] bcast_S8192_S8192x1_0),
    TRef.nullary main_call0.c_1 (constantI S1 32 16383#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg0) main_call0.v5 main_call0.v13 (fun x i => Host.gather gather_S16384x2048_S8192x1_S8192x2048_1_0_n_n_0_1_12048 x i),
    TRef.unary main_call0.v12 main_call0.v14 (broadcastInDim S8192x2048 ![0] bcast_S8192_S8192x2048_0),
    TRef.nullary main_call0.cst (constant S_ .f32 0x7FC00000#32),
    TRef.unary main_call0.cst main_call0.v15 (broadcastInDim S8192x2048 ![] bcast_S_S8192x2048),
    TRef.ternary main_call0.v14 main_call0.v13 main_call0.v15 main_call0.v16 select,
    binary main_v0 main_arg1 main_v1 ((fun l r => Host.dotGeneral dot_S8192x2048_S8192x2048_S8192x8192_1_1_0_0_n_n none l r) : (⟨S8192x2048, .f32⟩ : BufTy).Contents (Elt F) → (⟨S8192x2048, .f32⟩ : BufTy).Contents (Elt F) → (⟨S8192x8192, .f32⟩ : BufTy).Contents (Elt F)),
    TRef.unary (.of main_v1) main_call1.v0 Host.negf,
    TRef.unary main_call1.v0 main_call1.v1 Host.exp,
    TRef.nullary main_call1.cst (constant S_ .f32 0x3F800000#32),
    TRef.unary main_call1.cst main_call1.v2 (broadcastInDim S8192x8192 ![] bcast_S_S8192x8192),
    TRef.binary main_call1.v2 main_call1.v1 main_call1.v3 addf,
    TRef.nullary main_call1.cst_0 (constant S_ .f32 0x3F800000#32),
    TRef.unary main_call1.cst_0 main_call1.v4 (broadcastInDim S8192x8192 ![] bcast_S_S8192x8192),
    TRef.binary main_call1.v4 main_call1.v3 main_call1.v5 Host.divf,
    TRef.binary (.of main_v1) main_call1.v5 main_call1.v6 mulf,
    binary main_v0 main_arg2 main_v3 ((fun l r => Host.dotGeneral dot_S8192x2048_S8192x2048_S8192x8192_1_1_0_0_n_n none l r) : (⟨S8192x2048, .f32⟩ : BufTy).Contents (Elt F) → (⟨S8192x2048, .f32⟩ : BufTy).Contents (Elt F) → (⟨S8192x8192, .f32⟩ : BufTy).Contents (Elt F)),
    binary main_v2 main_v3 main_v4 (mulf : (⟨S8192x8192, .f32⟩ : BufTy).Contents (Elt F) → (⟨S8192x8192, .f32⟩ : BufTy).Contents (Elt F) → (⟨S8192x8192, .f32⟩ : BufTy).Contents (Elt F)),
    binary main_v4 main_arg3 main_v5 ((fun l r => Host.dotGeneral dot_S8192x8192_S2048x8192_S8192x2048_1_1_0_0_n_n none l r) : (⟨S8192x8192, .f32⟩ : BufTy).Contents (Elt F) → (⟨S2048x8192, .f32⟩ : BufTy).Contents (Elt F) → (⟨S8192x2048, .f32⟩ : BufTy).Contents (Elt F)),
    TRef.nullary main_call2.c (constantI S_ 32 0#32),
    TRef.unary main_call2.c main_call2.v0 (broadcastInDim S16384 ![] bcast_S_S16384),
    TRef.binary (.of main_arg5) main_call2.v0 main_call2.v1 (cmpi .slt),
    TRef.nullary main_call2.c_0 (constantI S_ 32 8192#32),
    TRef.unary main_call2.c_0 main_call2.v2 (broadcastInDim S16384 ![] bcast_S_S16384),
    TRef.binary (.of main_arg5) main_call2.v2 main_call2.v3 addi,
    TRef.ternary main_call2.v1 main_call2.v3 (.of main_arg5) main_call2.call0.v0 select,
    TRef.unary main_call2.call0.v0 main_call2.v5 (broadcastInDim S16384x1 ![0] bcast_S16384_S16384x1_0),
    TRef.nullary main_call2.c_1 (constantI S1 32 8191#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_v5) main_call2.v5 main_call2.v13 (fun x i => Host.gather gather_S8192x2048_S16384x1_S16384x2048_1_0_n_n_0_1_12048 x i),
    TRef.unary main_call2.v12 main_call2.v14 (broadcastInDim S16384x2048 ![0] bcast_S16384_S16384x2048_0),
    TRef.nullary main_call2.cst (constant S_ .f32 0x7FC00000#32),
    TRef.unary main_call2.cst main_call2.v15 (broadcastInDim S16384x2048 ![] bcast_S_S16384x2048),
    TRef.ternary main_call2.v14 main_call2.v13 main_call2.v15 main_call2.v16 select ]

/-- A chain of straight lines is the straight line of their concatenation. -/
theorem chain_map_seq {Λ : Labels} (ls : List (List (HloOp τ sig (Elt F)))) :
    Pipeline.chain (ls.map fun l => (seq l : Prog (TpuEff nD τ sig (Elt F) Λ .tc) PUnit)) = seq ls.flatten := by
  induction ls with
  | nil => rfl
  | cons l ls ih => simp only [List.map_cons, Pipeline.chain_cons, List.flatten_cons, seq_append, ih]

/-- The entry function is the chain of the five stretches: each call is its callee's body, which is the stretch's
    line over the call's buffers; the operations between two calls are a stretch as they stand. -/
theorem main_chain (c : Dev nD) :
    main (F := F) c = Pipeline.chain ([opsTake, opsProj, opsGate, opsRest, opsBack].map fun l => seq l) := by
  chain_rfl

/-- The entry function is the straight line of the 59 operations. -/
theorem main_eq (c : Dev nD) : main (F := F) c = seq ops :=
  (main_chain c).trans ((chain_map_seq _).trans rfl)

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the TensorCore's table only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- From any memory with zero counters, for any float values: every weakly fair execution of the entry function ends,
    and every final state has each buffer at the fold of the 59 operations' results over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefOps

end
-- ==== Proof.RefValue.lean ====
/-
  What the reference computes, as one function of its arguments.

  The reference's straight line (59 host operations) splits into three parts. The first 23 operations pick rows of
  the first argument by the first index vector: an index below zero has the row count added once, the result is read
  as a row number, and a row whose number is still outside the array is filled with one fixed word; `takeRows` is
  that composition, stated once and never opened. The last 23 do the same to the middle part's result with the second
  index vector: `takeBack`. The 13 operations in between are arithmetic on extended reals and are opened here, entry
  by entry: with `g` and `u` the inner products of a picked row with a row of the first and of the second weight
  array, the gate's nine operations compute `g · (1 / (1 + exp (−g)))`, which is `g · logistic g` by the definition
  of the logistic function on the extended reals, the product multiplies by `u`, and the last contraction sums the
  products with a row of the third weight array over the 8192 intermediate coordinates. That is the shared
  specification's `down` (`mlp_eq_down`).

  `run` puts the parts together: every execution of the reference ends with the result buffer at
  `takeBack (down (takeRows x i₀) w₁ w₂ w₃) i₁` of the launch contents of its six arguments, and the arguments
  unchanged.
-/
import proofs.«172787_j4105988735673_1_alg».proof.Proof.Gen.ReferenceIdeal
import proofs.«172787_j4105988735673_1_alg».proof.Proof.Spec
import proofs.«172787_j4105988735673_1_alg».proof.Proof.LibDotRows
import proofs.«172787_j4105988735673_1_alg».proof.Proof.RefOps
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The first `take`: the 23 operations composed, `x` the array whose rows are picked and `idx` the 8192 indices.
    An index below zero has 16384 added; the row at that number is gathered; a row whose number is not in
    `[0, 16383]` is replaced by the splat of one fixed word. -/
def takeRows (x : (⟨S16384x2048, .f32⟩ : BufTy).Contents (Elt Ideal)) (idx : (⟨S8192, .i32⟩ : BufTy).Contents (Elt Ideal)) :
    (⟨S8192x2048, .f32⟩ : BufTy).Contents (Elt Ideal) :=
  select
      (broadcastInDim S8192x2048 ![0] bcast_S8192_S8192x2048_0 (Host.reduce IntOp.andi (andi (cmpi .sge (broadcastInDim S8192x1 ![0] bcast_S8192_S8192x1_0 (select (cmpi .slt idx (broadcastInDim S8192 ![] bcast_S_S8192 (constantI S_ 32 0#32) : IVec S8192 32) : IVec S8192 1) (addi idx (broadcastInDim S8192 ![] bcast_S_S8192 (constantI S_ 32 16384#32) : IVec S8192 32) : IVec S8192 32) idx : IVec S8192 32) : IVec S8192x1 32) (broadcastInDim S8192x1 ![] bcast_S_S8192x1 (constantI S_ 32 0#32) : IVec S8192x1 32) : IVec S8192x1 1) (cmpi .sle (broadcastInDim S8192x1 ![0] bcast_S8192_S8192x1_0 (select (cmpi .slt idx (broadcastInDim S8192 ![] bcast_S_S8192 (constantI S_ 32 0#32) : IVec S8192 32) : IVec S8192 1) (addi idx (broadcastInDim S8192 ![] bcast_S_S8192 (constantI S_ 32 16384#32) : IVec S8192 32) : IVec S8192 32) idx : IVec S8192 32) : IVec S8192x1 32) (broadcastInDim S8192x1 ![0, 1] bcast_S1x1_S8192x1_0_1 (broadcastInDim S1x1 ![1] bcast_S1_S1x1_1 (constantI S1 32 16383#32) : IVec S1x1 32) : IVec S8192x1 32) : IVec S8192x1 1) : IVec S8192x1 1) (constantI S_ 1 1#1) reducesTo_S8192x1_S8192_d1 h_S_ : IVec S8192 1) : IVec S8192x2048 1)
      (Host.gather gather_S16384x2048_S8192x1_S8192x2048_1_0_n_n_0_1_12048 x (broadcastInDim S8192x1 ![0] bcast_S8192_S8192x1_0 (select (cmpi .slt idx (broadcastInDim S8192 ![] bcast_S_S8192 (constantI S_ 32 0#32) : IVec S8192 32) : IVec S8192 1) (addi idx (broadcastInDim S8192 ![] bcast_S_S8192 (constantI S_ 32 16384#32) : IVec S8192 32) : IVec S8192 32) idx : IVec S8192 32) : IVec S8192x1 32) : FVec Ideal S8192x2048 .f32)
      (broadcastInDim S8192x2048 ![] bcast_S_S8192x2048 (constant (F := Ideal) S_ .f32 0x7FC00000#32) : FVec Ideal S8192x2048 .f32)

/-- The second `take`: the same 23 operations at the other sizes, `d` the array whose rows are picked and `idx` the
    16384 indices. An index below zero has 8192 added; a row whose number is not in `[0, 8191]` is replaced by the splat
    of the same fixed word. -/
def takeBack (d : (⟨S8192x2048, .f32⟩ : BufTy).Contents (Elt Ideal)) (idx : (⟨S16384, .i32⟩ : BufTy).Contents (Elt Ideal)) :
    (⟨S16384x2048, .f32⟩ : BufTy).Contents (Elt Ideal) :=
  select
      (broadcastInDim S16384x2048 ![0] bcast_S16384_S16384x2048_0 (Host.reduce IntOp.andi (andi (cmpi .sge (broadcastInDim S16384x1 ![0] bcast_S16384_S16384x1_0 (select (cmpi .slt idx (broadcastInDim S16384 ![] bcast_S_S16384 (constantI S_ 32 0#32) : IVec S16384 32) : IVec S16384 1) (addi idx (broadcastInDim S16384 ![] bcast_S_S16384 (constantI S_ 32 8192#32) : IVec S16384 32) : IVec S16384 32) idx : IVec S16384 32) : IVec S16384x1 32) (broadcastInDim S16384x1 ![] bcast_S_S16384x1 (constantI S_ 32 0#32) : IVec S16384x1 32) : IVec S16384x1 1) (cmpi .sle (broadcastInDim S16384x1 ![0] bcast_S16384_S16384x1_0 (select (cmpi .slt idx (broadcastInDim S16384 ![] bcast_S_S16384 (constantI S_ 32 0#32) : IVec S16384 32) : IVec S16384 1) (addi idx (broadcastInDim S16384 ![] bcast_S_S16384 (constantI S_ 32 8192#32) : IVec S16384 32) : IVec S16384 32) idx : IVec S16384 32) : IVec S16384x1 32) (broadcastInDim S16384x1 ![0, 1] bcast_S1x1_S16384x1_0_1 (broadcastInDim S1x1 ![1] bcast_S1_S1x1_1 (constantI S1 32 8191#32) : IVec S1x1 32) : IVec S16384x1 32) : IVec S16384x1 1) : IVec S16384x1 1) (constantI S_ 1 1#1) reducesTo_S16384x1_S16384_d1 h_S_ : IVec S16384 1) : IVec S16384x2048 1)
      (Host.gather gather_S8192x2048_S16384x1_S16384x2048_1_0_n_n_0_1_12048 d (broadcastInDim S16384x1 ![0] bcast_S16384_S16384x1_0 (select (cmpi .slt idx (broadcastInDim S16384 ![] bcast_S_S16384 (constantI S_ 32 0#32) : IVec S16384 32) : IVec S16384 1) (addi idx (broadcastInDim S16384 ![] bcast_S_S16384 (constantI S_ 32 8192#32) : IVec S16384 32) : IVec S16384 32) idx : IVec S16384 32) : IVec S16384x1 32) : FVec Ideal S16384x2048 .f32)
      (broadcastInDim S16384x2048 ![] bcast_S_S16384x2048 (constant (F := Ideal) S_ .f32 0x7FC00000#32) : FVec Ideal S16384x2048 .f32)

/-- The 13 operations between the two `take`s composed: the contraction of the picked rows with the first weight
    array, the gate on it, the contraction with the second weight array, the product, the contraction with the third. -/
def mlp (xc wg wu : FVec Ideal S8192x2048 .f32) (wd : FVec Ideal S2048x8192 .f32) : FVec Ideal S8192x2048 .f32 :=
  Host.dotGeneral dot_S8192x8192_S2048x8192_S8192x2048_1_1_0_0_n_n none
      (mulf (mulf (Host.dotGeneral dot_S8192x2048_S8192x2048_S8192x8192_1_1_0_0_n_n none xc wg : FVec Ideal S8192x8192 .f32) (Host.divf (broadcastInDim S8192x8192 ![] bcast_S_S8192x8192 (constant (F := Ideal) S_ .f32 0x3F800000#32) : FVec Ideal S8192x8192 .f32) (addf (broadcastInDim S8192x8192 ![] bcast_S_S8192x8192 (constant (F := Ideal) S_ .f32 0x3F800000#32) : FVec Ideal S8192x8192 .f32) (Host.exp (Host.negf (Host.dotGeneral dot_S8192x2048_S8192x2048_S8192x8192_1_1_0_0_n_n none xc wg : FVec Ideal S8192x8192 .f32)))))) (Host.dotGeneral dot_S8192x2048_S8192x2048_S8192x8192_1_1_0_0_n_n none xc wu : FVec Ideal S8192x8192 .f32) : FVec Ideal S8192x8192 .f32)
      wd

/-- A contraction of two arrays of 8192 rows of 2048 coordinates on their last axes, at entry `(c, i)`: the inner
    product of row `c` of the first with row `i` of the second. -/
theorem proj_apply (x w : FVec Ideal S8192x2048 .f32) (c i : Fin 8192) :
    Host.dotGeneral dot_S8192x2048_S8192x2048_S8192x8192_1_1_0_0_n_n none x w (ix2 c i) = Cert.GatedMlp.proj x w c i :=
  Cert.Lib.DotRows.dotGeneral_rows_apply _ none x w c i

/-- The gate and the product at one entry: `g · (1 / (1 + exp (−g))) · u` is `g · logistic g · u`, the word
    `0x3F800000` being the extended real one. -/
theorem gate_apply (g u : FVec Ideal S8192x8192 .f32) (j : S8192x8192.Idx) :
    (mulf (mulf g (Host.divf (broadcastInDim S8192x8192 ![] bcast_S_S8192x8192 (constant (F := Ideal) S_ .f32 0x3F800000#32) : FVec Ideal S8192x8192 .f32) (addf (broadcastInDim S8192x8192 ![] bcast_S_S8192x8192 (constant (F := Ideal) S_ .f32 0x3F800000#32) : FVec Ideal S8192x8192 .f32) (Host.exp (Host.negf g))))) u) j = g j * Ideal.logistic (g j) * u j := by
  show g j * Ideal.div (Ideal.ofBits .f32 0x3F800000#32) (Ideal.ofBits .f32 0x3F800000#32 + Ideal.exp (-(g j))) * u j = _
  rw [Ideal.ofBits_one_f32]
  rfl

/-- The middle part is the shared specification's projection back: entry `(c, h)` of the last contraction is the sum
    over the 8192 intermediate coordinates `i` of the gated activation at `(c, i)` times entry `(h, i)` of the third
    weight array. -/
theorem mlp_eq_down (xc wg wu : FVec Ideal S8192x2048 .f32) (wd : FVec Ideal S2048x8192 .f32) :
    mlp xc wg wu wd = Cert.GatedMlp.down xc wg wu wd := by
  funext j
  obtain ⟨c, h, rfl⟩ : ∃ (c : Fin 8192) (h : Fin 2048), j = ix2 c h := ⟨j 0, j 1, eq_ix2 j⟩
  rw [Cert.GatedMlp.down_apply]
  unfold mlp
  refine (Cert.Lib.DotRows.dotGeneral_rows_apply _ none _ wd c h).trans ?_
  unfold Cert.GatedMlp.downAt Cert.GatedMlp.term Cert.GatedMlp.act
  refine Finset.sum_congr rfl fun i _ => ?_
  rw [gate_apply, proj_apply, proj_apply]

/-! ## The fold of the 59 operations at the result and at the arguments -/

/-- The fold at the result buffer is the three parts composed: each operation's result read at its own buffer is its
    function of the earlier buffers' contents, down to the six arguments'; the transports between a buffer's own type
    and its tensor's type are along equalities of a type with itself, so they are the identity. -/
theorem out_eq (V : Valuation τ sig (Elt Ideal)) :
    after (RefOps.ops (F := Ideal)) V (main_v6 : DevRef τ sig)
      = takeBack (mlp (takeRows (V (main_arg0 : DevRef τ sig)) (V (main_arg4 : DevRef τ sig)))
            (V (main_arg1 : DevRef τ sig)) (V (main_arg2 : DevRef τ sig)) (V (main_arg3 : DevRef τ sig)))
          (V (main_arg5 : DevRef τ sig)) := by
  after_results_simp
  simp only [cast_cast, cast_eq]
  unfold takeBack mlp takeRows
  rfl

/-- No operation writes an argument buffer. -/
theorem arg0_eq (V : Valuation τ sig (Elt Ideal)) :
    after (RefOps.ops (F := Ideal)) V (main_arg0 : DevRef τ sig) = V (main_arg0 : DevRef τ sig) := by
  after_results_simp
theorem arg1_eq (V : Valuation τ sig (Elt Ideal)) :
    after (RefOps.ops (F := Ideal)) V (main_arg1 : DevRef τ sig) = V (main_arg1 : DevRef τ sig) := by
  after_results_simp
theorem arg2_eq (V : Valuation τ sig (Elt Ideal)) :
    after (RefOps.ops (F := Ideal)) V (main_arg2 : DevRef τ sig) = V (main_arg2 : DevRef τ sig) := by
  after_results_simp
theorem arg3_eq (V : Valuation τ sig (Elt Ideal)) :
    after (RefOps.ops (F := Ideal)) V (main_arg3 : DevRef τ sig) = V (main_arg3 : DevRef τ sig) := by
  after_results_simp
theorem arg4_eq (V : Valuation τ sig (Elt Ideal)) :
    after (RefOps.ops (F := Ideal)) V (main_arg4 : DevRef τ sig) = V (main_arg4 : DevRef τ sig) := by
  after_results_simp
theorem arg5_eq (V : Valuation τ sig (Elt Ideal)) :
    after (RefOps.ops (F := Ideal)) V (main_arg5 : DevRef τ sig) = V (main_arg5 : DevRef τ sig) := by
  after_results_simp

/-- At the ideal values, from any memory with zero counters: every weakly fair execution of the reference ends with
    the result buffer at the second `take` of the specification's projection back of the first `take`, all of the
    launch contents of the arguments, and with the six arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
        = takeBack (Cert.GatedMlp.down (takeRows (m ((c.tc : Thread nD τ).loc main_arg0)) (m ((c.tc : Thread nD τ).loc main_arg4)))
              (m ((c.tc : Thread nD τ).loc main_arg1)) (m ((c.tc : Thread nD τ).loc main_arg2)) (m ((c.tc : Thread nD τ).loc main_arg3)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c =>
      ⟨(h c main_v6).trans ((out_eq (launchContents m c)).trans
          (congrArg (fun d => takeBack d (m ((c.tc : Thread nD τ).loc main_arg5))) (mlp_eq_down _ _ _ _))),
        (h c main_arg0).trans (arg0_eq _), (h c main_arg1).trans (arg1_eq _), (h c main_arg2).trans (arg2_eq _),
        (h c main_arg3).trans (arg3_eq _), (h c main_arg4).trans (arg4_eq _), (h c main_arg5).trans (arg5_eq _)⟩)
    (RefOps.run_ops (F := Ideal) m ρ)

end Cert.ReferenceIdeal.RefValue

end
-- ==== Proof.lean ====
/-
  The kernel and its reference compute one function at the ideal values.

  Both programs first gather 8192 rows of `x` by `fold_gather`, and last gather 16384 rows of an 8192-row array by
  `scatter_indices`, with the very same host operations (negative indices wrapped, rows whose index is out of range
  filled): those two steps are carried as two functions, `takeRows` and `takeBack`, that no lemma opens. Between them
  both compute the projection back of the gated activation,

      down c h = the sum over the 8192 intermediate coordinates i of (g · logistic g) · u · W_down h i,
      g = the inner product of row c of the gathered array with row i of W_gate,   u = the same with W_up:

  the reference by three whole products on the host; the kernel in one region, 16 row blocks by 16 tiles of the
  intermediate axis, a running block starting from zero at each row block's first tile, growing by one tile's sum of the
  terms at a time, and written out at the last tile. A sum over all 8192 coordinates is the sum over the tiles of the sums
  inside them, which needs only that the addition of extended reals is commutative and associative, so nothing is asked
  of the inputs: the precondition is not used. The changes of format on the kernel's way into the products are the identity
  at the ideal values, and the kernel's logistic function is by definition the reference's `1 / (1 + exp (-g))`.

  The three frames: the two kernel programs' are the runs of their regions; the reference's is its run with the result
  dropped. The idealization rewrote nothing, so `preserves` has nothing to state.
-/
import proofs.«172787_j4105988735673_1_alg».proof.Defs
import proofs.«172787_j4105988735673_1_alg».proof.Proof.Gen.Kernel
import proofs.«172787_j4105988735673_1_alg».proof.Proof.Gen.Kernel.Frame
import proofs.«172787_j4105988735673_1_alg».proof.Proof.Gen.KernelIdeal
import proofs.«172787_j4105988735673_1_alg».proof.Proof.Gen.KernelIdeal.Frame
import proofs.«172787_j4105988735673_1_alg».proof.Proof.Gen.ReferenceIdeal
import proofs.«172787_j4105988735673_1_alg».proof.Proof.Gen.Pre_finite_inputs
import proofs.«172787_j4105988735673_1_alg».proof.Proof.KRun
import proofs.«172787_j4105988735673_1_alg».proof.Proof.RefValue
import Idealize.ShloMosaic.Adequacy
import Idealize.ShloMosaic.Init

noncomputable section

namespace Cert.Proof

open Idealize.ShloMosaic Idealize.SL.Sem

/-- The two programs' spellings of the first gather are one function: the same operations in the same order. -/
theorem takeRows_eq (x : Cert.KernelIdeal.S16384x2048.Idx → EReal)
    (i : (⟨Cert.KernelIdeal.S8192, .i32⟩ : BufTy).Contents (Elt Ideal)) :
    Cert.ReferenceIdeal.RefValue.takeRows x i = Cert.KernelIdeal.HostValue.takeRows x i := rfl

/-- And so are their spellings of the second gather. -/
theorem takeBack_eq (d : Cert.KernelIdeal.S8192x2048.Idx → EReal)
    (i : (⟨Cert.KernelIdeal.S16384, .i32⟩ : BufTy).Contents (Elt Ideal)) :
    Cert.ReferenceIdeal.RefValue.takeBack d i = Cert.KernelIdeal.HostValue.takeBack d i := rfl

/-- The word-level kernel program runs and keeps its arguments: its region's run. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- At the ideal values both programs end with the second gather of the projection back of the first gather of
    arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5⟩ := hagree c
  rw [e0, e1, e2, e3, e4, e5, takeRows_eq, takeBack_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
